-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1000x128 : Shape := ⟨2, ![1000, 128]⟩
abbrev S100000 : Shape := ⟨1, ![100000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S1000x128 .f32) (main_arg3 : IVec S100000 32) (main_arg4 : FVec F S128x128 .f32) (main_arg5 : FVec F S128x128 .f32) (main_arg6 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S1000x128 : Shape := ⟨2, ![1000, 128]⟩
abbrev S100000 : Shape := ⟨1, ![100000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1000 : Shape := ⟨1, ![1000]⟩
abbrev S100000x1 : Shape := ⟨2, ![100000, 1]⟩
abbrev S5000x128 : Shape := ⟨2, ![5000, 128]⟩
abbrev S128x256 : Shape := ⟨2, ![128, 256]⟩
abbrev S1000x256 : Shape := ⟨2, ![1000, 256]⟩
abbrev S1000x1 : Shape := ⟨2, ![1000, 1]⟩
abbrev S1 : Shape := ⟨1, ![1]⟩
abbrev S5000x1 : Shape := ⟨2, ![5000, 1]⟩
abbrev S1600000x128 : Shape := ⟨2, ![1600000, 128]⟩

abbrev nBuf : Space → Nat
  | .hbm => 159
  | .vmem => 30
  | .smem => 0
  | _ => 0

abbrev hbmTy0_0 (i : Nat) : BufTy := match i % 128 with
  | 0 => ⟨S100000x128, .f32⟩
  | 1 => ⟨S2x1600000, .i32⟩
  | 2 => ⟨S1000x128, .f32⟩
  | 3 => ⟨S100000, .i32⟩
  | 4 => ⟨S128x128, .f32⟩
  | 5 => ⟨S128x128, .f32⟩
  | 6 => ⟨S128x128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S_, .f32⟩
  | 26 => ⟨S1000, .f32⟩
  | 27 => ⟨S100000x1, .i32⟩
  | 28 => ⟨S1000, .f32⟩
  | 29 => ⟨S_, .f32⟩
  | 30 => ⟨S1000, .f32⟩
  | 31 => ⟨S1000, .f32⟩
  | 32 => ⟨S_, .f32⟩
  | 33 => ⟨S1000, .f32⟩
  | 34 => ⟨S1000, .f32⟩
  | 35 => ⟨S100000, .i32⟩
  | 36 => ⟨S_, .i32⟩
  | 37 => ⟨S100000, .i32⟩
  | 38 => ⟨S100000, .i1⟩
  | 39 => ⟨S100000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x1, .f32⟩
  | 48 => ⟨S100000x128, .f32⟩
  | 49 => ⟨S128x256, .f32⟩
  | 50 => ⟨S1000x256, .f32⟩
  | 51 => ⟨S1000x128, .f32⟩
  | 52 => ⟨S1000x128, .f32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000, .f32⟩
  | 62 => ⟨S100000x1, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000x128, .f32⟩
  | 72 => ⟨S100000x128, .f32⟩
  | 73 => ⟨S100000x128, .f32⟩
  | 74 => ⟨S1000x1, .f32⟩
  | 75 => ⟨S1000x128, .f32⟩
  | 76 => ⟨S1000x128, .f32⟩
  | 77 => ⟨S_, .i32⟩
  | 78 => ⟨S1, .i32⟩
  | 79 => ⟨S100000x128, .f32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000, .f32⟩
  | 89 => ⟨S100000x1, .f32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000x128, .f32⟩
  | 99 => ⟨S100000x128, .f32⟩
  | 100 => ⟨S100000x128, .f32⟩
  | 101 => ⟨S1000x1, .f32⟩
  | 102 => ⟨S1000x128, .f32⟩
  | 103 => ⟨S1000x128, .f32⟩
  | 104 => ⟨S_, .i32⟩
  | 105 => ⟨S1, .i32⟩
  | 106 => ⟨S100000x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000, .f32⟩
  | 117 => ⟨S1600000x1, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x128, .f32⟩
  | 127 => ⟨S1600000x128, .f32⟩
  | _ => ⟨S100000x128, .f32⟩

abbrev hbmTy0_1 (i : Nat) : BufTy := match i % 128 with
  | 0 => ⟨S1600000x128, .f32⟩
  | 1 => ⟨S_, .f32⟩
  | 2 => ⟨S100000x128, .f32⟩
  | 3 => ⟨S1600000x1, .i32⟩
  | 4 => ⟨S100000x128, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000, .f32⟩
  | 14 => ⟨S1600000x1, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S1600000x128, .f32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S1000x128, .f32⟩
  | .local _ .vmem, ⟨6, _⟩ => ⟨S128x256, .f32⟩
  | .local _ .vmem, ⟨7, _⟩ => ⟨S1000x256, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x1, .f32⟩
  | .local _ .vmem, ⟨27, _⟩ => ⟨S5000x1, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_c_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_c_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_16 : Ref sig .tc := ⟨.hbm, 90, rfl⟩
abbrev main_v65 : Ref sig .tc := ⟨.hbm, 91, rfl⟩
abbrev main_v66 : Ref sig .tc := ⟨.hbm, 92, rfl⟩
abbrev main_c_17 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_18 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_19 : Ref sig .tc := ⟨.hbm, 108, rfl⟩
abbrev main_v80 : Ref sig .tc := ⟨.hbm, 109, rfl⟩
abbrev main_v81 : Ref sig .tc := ⟨.hbm, 110, rfl⟩
abbrev main_c_20 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_21 : Ref sig .tc := ⟨.hbm, 118, rfl⟩
abbrev main_v88 : Ref sig .tc := ⟨.hbm, 119, rfl⟩
abbrev main_v89 : Ref sig .tc := ⟨.hbm, 120, rfl⟩
abbrev main_c_22 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_23 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_24 : Ref sig .tc := ⟨.hbm, 133, rfl⟩
abbrev main_v100 : Ref sig .tc := ⟨.hbm, 134, rfl⟩
abbrev main_v101 : Ref sig .tc := ⟨.hbm, 135, rfl⟩
abbrev main_c_25 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_26 : Ref sig .tc := ⟨.hbm, 143, rfl⟩
abbrev main_v108 : Ref sig .tc := ⟨.hbm, 144, rfl⟩
abbrev main_v109 : Ref sig .tc := ⟨.hbm, 145, rfl⟩
abbrev main_c_27 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_28 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc3_stg7_0 : Ref sig .tc := ⟨.vmem, 28, rfl⟩
abbrev cc3_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem4_1 : DmaSem sig := 23
abbrev cc3_sem5_0 : DmaSem sig := 24
abbrev cc3_sem5_1 : DmaSem sig := 25
abbrev cc3_sem6_0 : DmaSem sig := 26
abbrev cc3_sem6_1 : DmaSem sig := 27
abbrev cc3_sem7_0 : DmaSem sig := 28
abbrev cc3_sem7_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1000x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1000 : S_.BroadcastsInDim S1000 (![] : Fin 0 → Fin S1000.rank)
  bcast_S100000_S100000x1_0 : S100000.BroadcastsInDim S100000x1 (![0] : Fin 1 → Fin S100000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  concatenates_S128x128_S128x128_S128x256_d1 : Shape.Concatenates [S128x128, S128x128] S128x256 1
  inb_S1000x128_S1000x128_0_0 : ∀ a, (![0, 0] : Fin 2 → Nat) a + S1000x128.size a ≤ S1000x128.size a
  h_S1000x128 : 0 < S1000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1000x256_S1000x256_0_0 : ∀ a, (![0, 0] : Fin 2 → Nat) a + S1000x256.size a ≤ S1000x256.size a
  h_S1000x256 : 0 < S1000x256.numel
  slices_S1000x256_S1000x128_0_0 : S1000x256.Slices ![0, 0] S1000x128
  slices_S1000x256_S1000x128_0_128 : S1000x256.Slices ![0, 128] S1000x128
  bcast_S100000x1_S100000x128_0_1 : S100000x1.BroadcastsInDim S100000x128 (![0, 1] : Fin 2 → Fin S100000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S_S1 : S_.BroadcastsInDim S1 (![] : Fin 0 → Fin S1.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  scatter_S1000_S100000x1_S100000_n_0_0_1_wf : ScatterDims.WF S1000 S100000x1 S100000 [] [0] [0] 1
  dot_S5000x128_S128x128_S5000x128_1_0_0_1_n_n_wf : DotDims.WF S5000x128 S128x128 S5000x128 [1] [0] [0] [1] [] []
  dot_S1000x128_S128x256_S1000x256_1_0_0_1_n_n_wf : DotDims.WF S1000x128 S128x256 S1000x256 [1] [0] [0] [1] [] []
  gather_S1000_S100000x1_S100000_n_0_n_n_0_1_1_wf : GatherDims.WF S1000 S100000x1 S100000 [] [0] [] [0] [] 1 ![1]
  gather_S1000x128_S100000x1_S100000x128_1_0_n_n_0_1_1128_wf : GatherDims.WF S1000x128 S100000x1 S100000x128 [1] [0] [] [0] [] 1 ![1, 128]
  scatter_S100000x128_S1_S1000x128_01_n_0_0_wf : ScatterDims.WF S100000x128 S1 S1000x128 [0, 1] [] [0] 0
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S1000x128.size a
  hwx1_0 : ∀ i : grid1.Coords, EltTy.bits .f32 = 32 ∨ (Rect.block (s := S1000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S1000x256.size a
  hwx1_2 : ∀ i : grid1.Coords, EltTy.bits .f32 = 32 ∨ (Rect.block (s := S1000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S100000x1.size a
  hwx3_6 : ∀ i : grid3.Coords, EltTy.bits .f32 = 32 ∨ (Rect.block (s := S100000x1) S5000x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S1000_S100000x1_S100000_n_0_n_n_0_1_1 : GatherDims S1000 S100000x1 S100000 where
  offsetDims := []
  collapsedSliceDims := [0]
  operandBatchingDims := []
  startIndicesBatchingDims := []
  startIndexMap := [0]
  indexVectorDim := 1
  sliceSizes := ![1]
  wf := gather_S1000_S100000x1_S100000_n_0_n_n_0_1_1_wf
def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def scatter_S100000x128_S1_S1000x128_01_n_0_0 : ScatterDims S100000x128 S1 S1000x128 where
  updateWindowDims := [0, 1]
  insertedWindowDims := []
  scatterDimsToOperandDims := [0]
  indexVectorDim := 0
  wf := scatter_S100000x128_S1_S1000x128_01_n_0_0_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1000x128.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v31) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1000x256.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v99) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v119) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v79) S5000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v28) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v29) S5000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v120) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1000x128 : Shape := ⟨2, ![1000, 128]⟩
abbrev S100000 : Shape := ⟨1, ![100000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1000 : Shape := ⟨1, ![1000]⟩
abbrev S100000x1 : Shape := ⟨2, ![100000, 1]⟩
abbrev S1600000x128 : Shape := ⟨2, ![1600000, 128]⟩
abbrev S1000x1 : Shape := ⟨2, ![1000, 1]⟩
abbrev S1 : Shape := ⟨1, ![1]⟩

abbrev nBuf : Space → Nat
  | .hbm => 178
  | .vmem => 0
  | .smem => 0
  | _ => 0

abbrev hbmTy0_0 (i : Nat) : BufTy := match i % 128 with
  | 0 => ⟨S100000x128, .f32⟩
  | 1 => ⟨S2x1600000, .i32⟩
  | 2 => ⟨S1000x128, .f32⟩
  | 3 => ⟨S100000, .i32⟩
  | 4 => ⟨S128x128, .f32⟩
  | 5 => ⟨S128x128, .f32⟩
  | 6 => ⟨S128x128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S_, .f32⟩
  | 26 => ⟨S1000, .f32⟩
  | 27 => ⟨S100000x1, .i32⟩
  | 28 => ⟨S1000, .f32⟩
  | 29 => ⟨S_, .f32⟩
  | 30 => ⟨S1000, .f32⟩
  | 31 => ⟨S1000, .f32⟩
  | 32 => ⟨S_, .f32⟩
  | 33 => ⟨S1000, .f32⟩
  | 34 => ⟨S1000, .f32⟩
  | 35 => ⟨S100000, .i32⟩
  | 36 => ⟨S_, .i32⟩
  | 37 => ⟨S100000, .i32⟩
  | 38 => ⟨S100000, .i1⟩
  | 39 => ⟨S100000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S1600000x128, .f32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S100000x1, .f32⟩
  | 73 => ⟨S100000x1, .f32⟩
  | 74 => ⟨S100000x128, .f32⟩
  | 75 => ⟨S100000x128, .f32⟩
  | 76 => ⟨S100000x128, .f32⟩
  | 77 => ⟨S100000x128, .f32⟩
  | 78 => ⟨S100000x128, .f32⟩
  | 79 => ⟨S1000x128, .f32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000, .f32⟩
  | 89 => ⟨S100000x1, .f32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000x128, .f32⟩
  | 99 => ⟨S100000x128, .f32⟩
  | 100 => ⟨S100000x128, .f32⟩
  | 101 => ⟨S1000x1, .f32⟩
  | 102 => ⟨S1000x128, .f32⟩
  | 103 => ⟨S1000x128, .f32⟩
  | 104 => ⟨S_, .i32⟩
  | 105 => ⟨S1, .i32⟩
  | 106 => ⟨S100000x128, .f32⟩
  | 107 => ⟨S100000x1, .f32⟩
  | 108 => ⟨S100000x128, .f32⟩
  | 109 => ⟨S100000x128, .f32⟩
  | 110 => ⟨S1000x128, .f32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S100000, .f32⟩
  | 120 => ⟨S100000x1, .f32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S100000x128, .f32⟩

abbrev hbmTy0_1 (i : Nat) : BufTy := match i % 128 with
  | 0 => ⟨S100000x1, .i32⟩
  | 1 => ⟨S100000x128, .f32⟩
  | 2 => ⟨S100000x128, .f32⟩
  | 3 => ⟨S100000x128, .f32⟩
  | 4 => ⟨S1000x1, .f32⟩
  | 5 => ⟨S1000x128, .f32⟩
  | 6 => ⟨S1000x128, .f32⟩
  | 7 => ⟨S_, .i32⟩
  | 8 => ⟨S1, .i32⟩
  | 9 => ⟨S100000x128, .f32⟩
  | 10 => ⟨S100000x1, .f32⟩
  | 11 => ⟨S100000x128, .f32⟩
  | 12 => ⟨S100000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000, .f32⟩
  | 22 => ⟨S1600000x1, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S1600000x128, .f32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S100000x1, .f32⟩
  | 39 => ⟨S100000x1, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S_, .f32⟩
  | 48 => ⟨S100000x128, .f32⟩
  | 49 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_c_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_c_12 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_c_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_16 : Ref sig .tc := ⟨.hbm, 90, rfl⟩
abbrev main_v65 : Ref sig .tc := ⟨.hbm, 91, rfl⟩
abbrev main_v66 : Ref sig .tc := ⟨.hbm, 92, rfl⟩
abbrev main_c_17 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_18 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_19 : Ref sig .tc := ⟨.hbm, 111, rfl⟩
abbrev main_v83 : Ref sig .tc := ⟨.hbm, 112, rfl⟩
abbrev main_v84 : Ref sig .tc := ⟨.hbm, 113, rfl⟩
abbrev main_c_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_21 : Ref sig .tc := ⟨.hbm, 121, rfl⟩
abbrev main_v91 : Ref sig .tc := ⟨.hbm, 122, rfl⟩
abbrev main_v92 : Ref sig .tc := ⟨.hbm, 123, rfl⟩
abbrev main_c_22 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_c_23 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_c_24 : Ref sig .tc := ⟨.hbm, 141, rfl⟩
abbrev main_v108 : Ref sig .tc := ⟨.hbm, 142, rfl⟩
abbrev main_v109 : Ref sig .tc := ⟨.hbm, 143, rfl⟩
abbrev main_c_25 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_c_26 : Ref sig .tc := ⟨.hbm, 151, rfl⟩
abbrev main_v116 : Ref sig .tc := ⟨.hbm, 152, rfl⟩
abbrev main_v117 : Ref sig .tc := ⟨.hbm, 153, rfl⟩
abbrev main_c_27 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_28 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_29 : Ref sig .tc := ⟨.hbm, 175, rfl⟩
abbrev main_v137 : Ref sig .tc := ⟨.hbm, 176, rfl⟩
abbrev main_v138 : Ref sig .tc := ⟨.hbm, 177, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1000 : S_.BroadcastsInDim S1000 (![] : Fin 0 → Fin S1000.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S_S1 : S_.BroadcastsInDim S1 (![] : Fin 0 → Fin S1.rank)
  scatter_S100000_S1600000x1_S1600000_n_0_0_1_wf : ScatterDims.WF S100000 S1600000x1 S1600000 [] [0] [0] 1
  scatter_S1000_S100000x1_S100000_n_0_0_1_wf : ScatterDims.WF S1000 S100000x1 S100000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x128_S1000x128_1_0_0_1_n_n_wf : DotDims.WF S1000x128 S128x128 S1000x128 [1] [0] [0] [1] [] []
  gather_S1000_S100000x1_S100000_n_0_n_n_0_1_1_wf : GatherDims.WF S1000 S100000x1 S100000 [] [0] [] [0] [] 1 ![1]
  gather_S1000x128_S100000x1_S100000x128_1_0_n_n_0_1_1128_wf : GatherDims.WF S1000x128 S100000x1 S100000x128 [1] [0] [] [0] [] 1 ![1, 128]
  scatter_S100000x128_S1_S1000x128_01_n_0_0_wf : ScatterDims.WF S100000x128 S1 S1000x128 [0, 1] [] [0] 0

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S1000_S100000x1_S100000_n_0_n_n_0_1_1 : GatherDims S1000 S100000x1 S100000 where
  offsetDims := []
  collapsedSliceDims := [0]
  operandBatchingDims := []
  startIndicesBatchingDims := []
  startIndexMap := [0]
  indexVectorDim := 1
  sliceSizes := ![1]
  wf := gather_S1000_S100000x1_S100000_n_0_n_n_0_1_1_wf
def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def scatter_S100000x128_S1_S1000x128_01_n_0_0 : ScatterDims S100000x128 S1 S1000x128 where
  updateWindowDims := [0, 1]
  insertedWindowDims := []
  scatterDimsToOperandDims := [0]
  indexVectorDim := 0
  wf := scatter_S100000x128_S1_S1000x128_01_n_0_0_wf

class Facts : Prop extends Facts₀ where

variable [Facts]
-- ==== Proof.KRun.lean ====
/-
  The program is eight segments: four stretches of host operations alternating with four tiled regions. Every weakly
  fair execution ends, without a fault, with each array of each core at what folding the segments over the launch
  contents gives: a stretch applies its operations in order, a region leaves its output array at what its write-backs
  wrote and every other array as it found it. The result array and the seven argument arrays are read out of that.
-/
import proofs.«156599_j88467736363033_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with every unscoped buffer of every core at the
    contents the fold through the eight segments gives it: the four stretches of host operations applied in order, each
    region's arrays at what its write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run with the result array and the seven argument arrays read out of it. -/
theorem run_result : θ_run defs (onTc (τ := τ) (main (F := F))) ⟨m, fun _ => 0, ρ⟩ (fun r => ∀ c : Dev nD,
      r.2.mem ((c.tc : Thread nD τ).loc main_v120) = W8 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v120 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)
    (run_all m ρ)

end Cert.KernelIdeal.Whole

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Reg0.lean ====
/-
  The first region: x · WX in twenty tiles of 5000 rows. At grid point t the first window holds rows 5000t … 5000t + 4999
  of x, the second all of WX, and the body writes their product into rows 5000t … 5000t + 4999 of the output. Entry (p, q)
  of a tile's product is Σ_k x(5000t + p, k) · WX(k, q), which is entry (5000t + p, q) of the whole product; the row
  r lies in the tile r / 5000, so the tiles cover the array. Hence the output array after the region is the whole product.
-/
import proofs.«156599_j88467736363033_1_alg».proof.Proof.Gen.KernelIdeal.Frame
import proofs.«156599_j88467736363033_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The [100000,128] × [128,128] product as one whole-array function. -/
def rowsTimes (x : S100000x128.Idx → EReal) (w : S128x128.Idx → EReal) : S100000x128.Idx → EReal :=
  fun i => ∑ k : Fin 128, x (ix2 (i 0) k) * w (ix2 k (i 1))

theorem tileProd (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.Lib.matmul_zero_apply dot_S5000x128_S128x128_S5000x128_1_0_0_1_n_n_wf none x0 x1 p q

theorem idx0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

theorem wrote0 (c : Dev nD) (t : Fin cfg0.N) :
    (dat0 V c).flushed 2 t = ((cfg0.win 2).blk t).view.read (Elt Ideal) (rowsTimes (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = rowsTimes (V c main_arg0) (V c main_arg4) (((cfg0.win 2).blk t).view.emb (ix2 p q))
  refine (tileProd _ _ p q).trans ?_
  unfold rowsTimes
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  refine congrArg₂ _ ?_ ?_
  · show V c main_arg0 (((cfg0.win 0).blk t).view.emb (ix2 p k)) = _
    exact congrArg _ h0
  · show V c main_arg4 (((cfg0.win 1).blk t).view.emb (ix2 k q)) = _
    exact congrArg _ h1

theorem inTile0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

theorem tiles0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx0 t
  have e4' : win0_2.index t (0 : Fin 2) = (i 0).val / 5000 := e4
  refine ⟨t, flush0_2 t, ?_⟩
  rw [inTile0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0 its output array is the whole product. -/
theorem array0 (c : Dev nD) : (dat0 V c).arrAt 2 cfg0.N = rowsTimes (V c main_arg0) (V c main_arg4) :=
  (dat0 V c).arrAt_eq_of_cover 2 (rowsTimes (V c main_arg0) (V c main_arg4)) (fun t _ => wrote0 V c t) tiles0

end Cert.KernelIdeal.Tiles

end
-- ==== Proof.Reg1.lean ====
/-
  The second region: bc · [WZ | Wα] in a single tile. The one grid point holds all of bc (1000 × 128) and all of the
  128 × 256 matrix, and the body writes the whole 1000 × 256 product: entry (p, q) is Σ_k bc(p, k) · M(k, q).
-/
import proofs.«156599_j88467736363033_1_alg».proof.Proof.Gen.KernelIdeal.Frame
import proofs.«156599_j88467736363033_1_alg».proof.Proof.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The [1000,128] × [128,256] product as one whole-array function. -/
def wideProduct (x : S1000x128.Idx → EReal) (w : S128x256.Idx → EReal) : S1000x256.Idx → EReal :=
  fun i => ∑ k : Fin 128, x (ix2 (i 0) k) * w (ix2 k (i 1))

theorem tileWide (x0 : Vec Ideal S1000x128 .f32) (x1 : Vec Ideal S128x256 .f32) (p : Fin 1000) (q : Fin 256) :
    k1_pay1 (F := Ideal) x0 x1 (ix2 p q) = ∑ k : Fin 128, x0 (ix2 p k) * x1 (ix2 k q) := by
  unfold k1_pay1
  simp only [shapeCast_self]
  exact Cert.Lib.matmul_zero_apply dot_S1000x128_S128x256_S1000x256_1_0_0_1_n_n_wf none x0 x1 p q

theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem wrote1 (c : Dev nD) (t : Fin cfg1.N) :
    (dat1 V c).flushed 2 t = ((cfg1.win 2).blk t).view.read (Elt Ideal) (wideProduct (V c main_arg2) (V c main_v31)) := by
  show (cfg1.win 2).cut (grid1.coords t) ((dat1 V c).after 2 t) = _
  rw [after1_2]
  unfold out1_2
  rw [View.canon_unit_zero hz]
  simp only [View.ld_unit_zero (S := S1000x128) hz, View.ld_unit_zero (S := S128x256) hz]
  obtain ⟨e0, e1, e2, e3, e4, e5⟩ := idx1 t
  funext j
  obtain ⟨p, q, rfl⟩ : ∃ (p : Fin 1000) (q : Fin 256), j = ix2 p q := ⟨j 0, j 1, eq_ix2 j⟩
  show k1_pay1 (F := Ideal) (iblk1 V c 0 t) (iblk1 V c 1 t) (ix2 p q)
    = wideProduct (V c main_arg2) (V c main_v31) (((cfg1.win 2).blk t).view.emb (ix2 p q))
  refine (tileWide _ _ p q).trans ?_
  unfold wideProduct
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 1000 + 1 * p.val = win1_2.index t (0 : Fin 2) * 1000 + 1 * p.val; omega
    | ⟨1, _⟩ => show win1_0.index t (1 : Fin 2) * 128 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 128 + 1 * k.val = k.val; omega
    | ⟨1, _⟩ => show win1_1.index t (1 : Fin 2) * 256 + 1 * q.val = win1_2.index t (1 : Fin 2) * 256 + 1 * q.val; omega
  refine congrArg₂ _ ?_ ?_
  · show V c main_arg2 (((cfg1.win 0).blk t).view.emb (ix2 p k)) = _
    exact congrArg _ h0
  · show V c main_v31 (((cfg1.win 1).blk t).view.emb (ix2 k q)) = _
    exact congrArg _ h1

theorem inTile1 (t : Fin cfg1.N) (i : S1000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v32).slice (win1_2.rect t)).set ↔ _
  rw [View.set_slice_whole, Rect.mem_set_unit]
  exact Iff.rfl

theorem tiles1 (i : S1000x256.Idx) : ∃ t : Fin cfg1.N, (cfg1.win 2).flush t = true ∧ i ∈ ((cfg1.win 2).blk t).view.set := by
  have hi0 : (i 0).val < 1000 := (i 0).isLt
  have hi1 : (i 1).val < 256 := (i 1).isLt
  obtain ⟨e0, e1, e2, e3, e4, e5⟩ := idx1 t1_0
  refine ⟨t1_0, flush1_2 t1_0, ?_⟩
  rw [inTile1]
  intro a
  match a with
  | ⟨0, _⟩ => show win1_2.index t1_0 (0 : Fin 2) * 1000 ≤ (i 0).val ∧ (i 0).val < win1_2.index t1_0 (0 : Fin 2) * 1000 + 1000; omega
  | ⟨1, _⟩ => show win1_2.index t1_0 (1 : Fin 2) * 256 ≤ (i 1).val ∧ (i 1).val < win1_2.index t1_0 (1 : Fin 2) * 256 + 256; omega

/-- After region 1 its output array is the whole [1000,256] product. -/
theorem array1 (c : Dev nD) : (dat1 V c).arrAt 2 cfg1.N = wideProduct (V c main_arg2) (V c main_v31) :=
  (dat1 V c).arrAt_eq_of_cover 2 _ (fun t _ => wrote1 V c t) tiles1

end Cert.KernelIdeal.Tiles

end
-- ==== Proof.Reg2.lean ====
/-
  The third region: every row of a [100000, 128] array times that row's entry of a [100000, 1] column, in twenty tiles
  of 5000 rows. At grid point t both windows hold rows 5000t … 5000t + 4999; broadcasting the column along the second
  axis reads its entry of the same row, so entry (p, q) of the tile is a(5000t + p, q) · s(5000t + p, 0).
-/
import proofs.«156599_j88467736363033_1_alg».proof.Proof.Gen.KernelIdeal.Frame
import proofs.«156599_j88467736363033_1_alg».proof.Proof.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A [5000,1] column broadcast along the second axis reads the column's entry of the same row. -/
theorem colBcast {α : Type} (v : S5000x1.Idx → α) (p : Fin 5000) (q : Fin 128) :
    broadcastTo S5000x128 v broadcasts_S5000x1_S5000x128 (ix2 p q) = v (ix2 p (0 : Fin 1)) :=
  broadcastTo_apply v broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- Every row of a [100000,128] array times that row's entry of a [100000,1] column. -/
def rowScaled (a : S100000x128.Idx → EReal) (s : S100000x1.Idx → EReal) : S100000x128.Idx → EReal :=
  fun i => a i * s (ix2 (i 0) (0 : Fin 1))

theorem tileScaled (x0 : Vec Ideal S5000x128 .f32) (x2 : Vec Ideal S5000x1 .f32) (p : Fin 5000) (q : Fin 128) :
    k2_pay1 (F := Ideal) x0 x2 (ix2 p q) = x0 (ix2 p q) * x2 (ix2 p (0 : Fin 1)) := by
  unfold k2_pay1
  simp only [mulf_apply, shapeCast_self, colBcast]

theorem idx2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = 0
    ∧ win2_2.index t (0 : Fin 2) = t.val
    ∧ win2_2.index t (1 : Fin 2) = 0 :=
  (by decide +kernel : ∀ t : Fin grid2.N, _)

theorem wrote2 (c : Dev nD) (t : Fin cfg2.N) :
    (dat2 V c).flushed 2 t = ((cfg2.win 2).blk t).view.read (Elt Ideal) (rowScaled (V c main_v78) (V c main_v29)) := by
  show (cfg2.win 2).cut (grid2.coords t) ((dat2 V c).after 2 t) = _
  rw [after2_2]
  unfold out2_2
  rw [View.canon_unit_zero hz]
  simp only [View.ld_unit_zero (S := S5000x128) hz, View.ld_unit_zero (S := S5000x1) hz]
  obtain ⟨e0, e1, e2, e3, e4, e5⟩ := idx2 t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
    = rowScaled (V c main_v78) (V c main_v29) (((cfg2.win 2).blk t).view.emb (ix2 p q))
  refine (tileScaled _ _ p q).trans ?_
  unfold rowScaled
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * q.val = win2_2.index t (1 : Fin 2) * 128 + 1 * q.val; omega
  have h1 : ((cfg2.win 1).blk t).view.emb (ix2 p (0 : Fin 1)) = ix2 ((((cfg2.win 2).blk t).view.emb (ix2 p q)) 0) (0 : Fin 1) := by
    funext a; apply Fin.ext
    match a with
    | ⟨0, _⟩ => show win2_1.index t (0 : Fin 2) * 5000 + 1 * p.val = win2_2.index t (0 : Fin 2) * 5000 + 1 * p.val; omega
    | ⟨1, _⟩ => show win2_1.index t (1 : Fin 2) * 1 + 1 * 0 = 0; omega
  refine congrArg₂ _ ?_ ?_
  · show V c main_v78 (((cfg2.win 0).blk t).view.emb (ix2 p q)) = _
    exact congrArg _ h0
  · show V c main_v29 (((cfg2.win 1).blk t).view.emb (ix2 p (0 : Fin 1))) = _
    exact congrArg _ h1

theorem inTile2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v79).slice (win2_2.rect t)).set ↔ _
  rw [View.set_slice_whole, Rect.mem_set_unit]
  exact Iff.rfl

theorem tiles2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e0, e1, e2, e3, e4, e5⟩ := idx2 t
  have e4' : win2_2.index t (0 : Fin 2) = (i 0).val / 5000 := e4
  refine ⟨t, flush2_2 t, ?_⟩
  rw [inTile2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After region 2 its output array is the row-scaled input. -/
theorem array2 (c : Dev nD) : (dat2 V c).arrAt 2 cfg2.N = rowScaled (V c main_v78) (V c main_v29) :=
  (dat2 V c).arrAt_eq_of_cover 2 (rowScaled (V c main_v78) (V c main_v29)) (fun t _ => wrote2 V c t) tiles2

end Cert.KernelIdeal.Tiles

end
-- ==== Proof.Reg3.lean ====
/-
  The last region: the fused mean, in twenty tiles of 5000 rows. With d and drow the two normaliser columns, row i of the
  output is ((d_i · (aggx_i + d_i · hx_i) + drow_i · outz_i) + d_i · (agga_i + d_i · hba_i)) · (1/3), every operation entry
  by entry and the two columns broadcast along the second axis. All eight windows move together with the grid point, so
  a tile of the output is the same function of the same rows of the seven inputs. The constant is the named rational 1/3.
-/
import proofs.«156599_j88467736363033_1_alg».proof.Proof.Gen.KernelIdeal.Frame
import proofs.«156599_j88467736363033_1_alg».proof.Proof.Reg2
import Idealize.ShloMosaic.PureOps.IdealRules
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The kernel's named constant is the rational 1/3 on the extended reals. -/
theorem third : Named.named (F := Ideal) Cert.KernelIdeal.κ "inv_3" (φ := .f32) 0x3EAAAAAB#32 = ((1 / 3 : ℝ) : EReal) :=
  IdealRules.named_const.ideal_named_scalar _ _ _ _ rfl

/-- The fused mean of the three normalised sources, row i scaled by the two columns' entries of row i. -/
def fused (aggx hx outz agga hba : S100000x128.Idx → EReal) (d drow : S100000x1.Idx → EReal) : S100000x128.Idx → EReal :=
  fun i => ((d (ix2 (i 0) (0 : Fin 1)) * (aggx i + d (ix2 (i 0) (0 : Fin 1)) * hx i) + drow (ix2 (i 0) (0 : Fin 1)) * outz i)
      + d (ix2 (i 0) (0 : Fin 1)) * (agga i + d (ix2 (i 0) (0 : Fin 1)) * hba i)) * ((1 / 3 : ℝ) : EReal)

theorem tileFused (v0 v2 : Vec Ideal S5000x1 .f32) (v4 v6 v13 v17 v19 : Vec Ideal S5000x128 .f32) (p : Fin 5000) (q : Fin 128) :
    k3_pay1 (F := Ideal) v0 v2 v4 v6 v13 v17 v19 (ix2 p q)
      = ((v0 (ix2 p (0 : Fin 1)) * (v4 (ix2 p q) + v0 (ix2 p (0 : Fin 1)) * v6 (ix2 p q)) + v2 (ix2 p (0 : Fin 1)) * v13 (ix2 p q))
          + v0 (ix2 p (0 : Fin 1)) * (v17 (ix2 p q) + v0 (ix2 p (0 : Fin 1)) * v19 (ix2 p q))) * ((1 / 3 : ℝ) : EReal) := by
  unfold k3_pay1
  simp only [mulf_apply, addf_apply, broadcast_apply, shapeCast_self, colBcast, third]

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

theorem wrote3 (c : Dev nD) (t : Fin cfg3.N) :
    (dat3 V c).flushed 7 t = ((cfg3.win 7).blk t).view.read (Elt Ideal)
      (fused (V c main_v99) (V c main_v30) (V c main_v56) (V c main_v119) (V c main_v79) (V c main_v28) (V c main_v29)) := by
  show (cfg3.win 7).cut (grid3.coords t) ((dat3 V c).after 7 t) = _
  rw [after3_7]
  unfold out3_7
  rw [View.canon_unit_zero hz]
  simp only [View.ld_unit_zero (S := S5000x128) hz, View.ld_unit_zero (S := S5000x1) hz]
  obtain ⟨a0, b0, a1, b1, a2, b2, a3, b3, a4, b4, a5, b5, a6, b6, a7, b7⟩ := idx3 t
  funext j
  obtain ⟨p, q, rfl⟩ : ∃ (p : Fin 5000) (q : Fin 128), j = ix2 p q := ⟨j 0, j 1, eq_ix2 j⟩
  show k3_pay1 (F := Ideal) (iblk3 V c 5 t) (iblk3 V c 6 t) (iblk3 V c 0 t) (iblk3 V c 1 t) (iblk3 V c 2 t) (iblk3 V c 3 t) (iblk3 V c 4 t) (ix2 p q)
    = fused (V c main_v99) (V c main_v30) (V c main_v56) (V c main_v119) (V c main_v79) (V c main_v28) (V c main_v29) (((cfg3.win 7).blk t).view.emb (ix2 p q))
  refine (tileFused _ _ _ _ _ _ _ p q).trans ?_
  unfold fused
  have h0 : ((cfg3.win 0).blk t).view.emb (ix2 p q) = ((cfg3.win 7).blk t).view.emb (ix2 p q) := by
    funext a; apply Fin.ext
    match a with
    | ⟨0, _⟩ => show win3_0.index t (0 : Fin 2) * 5000 + 1 * p.val = win3_7.index t (0 : Fin 2) * 5000 + 1 * p.val; omega
    | ⟨1, _⟩ => show win3_0.index t (1 : Fin 2) * 128 + 1 * q.val = win3_7.index t (1 : Fin 2) * 128 + 1 * q.val; omega
  have h1 : ((cfg3.win 1).blk t).view.emb (ix2 p q) = ((cfg3.win 7).blk t).view.emb (ix2 p q) := by
    funext a; apply Fin.ext
    match a with
    | ⟨0, _⟩ => show win3_1.index t (0 : Fin 2) * 5000 + 1 * p.val = win3_7.index t (0 : Fin 2) * 5000 + 1 * p.val; omega
    | ⟨1, _⟩ => show win3_1.index t (1 : Fin 2) * 128 + 1 * q.val = win3_7.index t (1 : Fin 2) * 128 + 1 * q.val; omega
  have h2 : ((cfg3.win 2).blk t).view.emb (ix2 p q) = ((cfg3.win 7).blk t).view.emb (ix2 p q) := by
    funext a; apply Fin.ext
    match a with
    | ⟨0, _⟩ => show win3_2.index t (0 : Fin 2) * 5000 + 1 * p.val = win3_7.index t (0 : Fin 2) * 5000 + 1 * p.val; omega
    | ⟨1, _⟩ => show win3_2.index t (1 : Fin 2) * 128 + 1 * q.val = win3_7.index t (1 : Fin 2) * 128 + 1 * q.val; omega
  have h3 : ((cfg3.win 3).blk t).view.emb (ix2 p q) = ((cfg3.win 7).blk t).view.emb (ix2 p q) := by
    funext a; apply Fin.ext
    match a with
    | ⟨0, _⟩ => show win3_3.index t (0 : Fin 2) * 5000 + 1 * p.val = win3_7.index t (0 : Fin 2) * 5000 + 1 * p.val; omega
    | ⟨1, _⟩ => show win3_3.index t (1 : Fin 2) * 128 + 1 * q.val = win3_7.index t (1 : Fin 2) * 128 + 1 * q.val; omega
  have h4 : ((cfg3.win 4).blk t).view.emb (ix2 p q) = ((cfg3.win 7).blk t).view.emb (ix2 p q) := by
    funext a; apply Fin.ext
    match a with
    | ⟨0, _⟩ => show win3_4.index t (0 : Fin 2) * 5000 + 1 * p.val = win3_7.index t (0 : Fin 2) * 5000 + 1 * p.val; omega
    | ⟨1, _⟩ => show win3_4.index t (1 : Fin 2) * 128 + 1 * q.val = win3_7.index t (1 : Fin 2) * 128 + 1 * q.val; omega
  have h5 : ((cfg3.win 5).blk t).view.emb (ix2 p (0 : Fin 1)) = ix2 ((((cfg3.win 7).blk t).view.emb (ix2 p q)) 0) (0 : Fin 1) := by
    funext a; apply Fin.ext
    match a with
    | ⟨0, _⟩ => show win3_5.index t (0 : Fin 2) * 5000 + 1 * p.val = win3_7.index t (0 : Fin 2) * 5000 + 1 * p.val; omega
    | ⟨1, _⟩ => show win3_5.index t (1 : Fin 2) * 1 + 1 * 0 = 0; omega
  have h6 : ((cfg3.win 6).blk t).view.emb (ix2 p (0 : Fin 1)) = ix2 ((((cfg3.win 7).blk t).view.emb (ix2 p q)) 0) (0 : Fin 1) := by
    funext a; apply Fin.ext
    match a with
    | ⟨0, _⟩ => show win3_6.index t (0 : Fin 2) * 5000 + 1 * p.val = win3_7.index t (0 : Fin 2) * 5000 + 1 * p.val; omega
    | ⟨1, _⟩ => show win3_6.index t (1 : Fin 2) * 1 + 1 * 0 = 0; omega
  have g0 : iblk3 V c 0 t (ix2 p q) = V c main_v99 (((cfg3.win 7).blk t).view.emb (ix2 p q)) :=
    show V c main_v99 (((cfg3.win 0).blk t).view.emb (ix2 p q)) = _ from congrArg _ h0
  have g1 : iblk3 V c 1 t (ix2 p q) = V c main_v30 (((cfg3.win 7).blk t).view.emb (ix2 p q)) :=
    show V c main_v30 (((cfg3.win 1).blk t).view.emb (ix2 p q)) = _ from congrArg _ h1
  have g2 : iblk3 V c 2 t (ix2 p q) = V c main_v56 (((cfg3.win 7).blk t).view.emb (ix2 p q)) :=
    show V c main_v56 (((cfg3.win 2).blk t).view.emb (ix2 p q)) = _ from congrArg _ h2
  have g3 : iblk3 V c 3 t (ix2 p q) = V c main_v119 (((cfg3.win 7).blk t).view.emb (ix2 p q)) :=
    show V c main_v119 (((cfg3.win 3).blk t).view.emb (ix2 p q)) = _ from congrArg _ h3
  have g4 : iblk3 V c 4 t (ix2 p q) = V c main_v79 (((cfg3.win 7).blk t).view.emb (ix2 p q)) :=
    show V c main_v79 (((cfg3.win 4).blk t).view.emb (ix2 p q)) = _ from congrArg _ h4
  have g5 : iblk3 V c 5 t (ix2 p (0 : Fin 1)) = V c main_v28 (ix2 ((((cfg3.win 7).blk t).view.emb (ix2 p q)) 0) (0 : Fin 1)) :=
    show V c main_v28 (((cfg3.win 5).blk t).view.emb (ix2 p (0 : Fin 1))) = _ from congrArg _ h5
  have g6 : iblk3 V c 6 t (ix2 p (0 : Fin 1)) = V c main_v29 (ix2 ((((cfg3.win 7).blk t).view.emb (ix2 p q)) 0) (0 : Fin 1)) :=
    show V c main_v29 (((cfg3.win 6).blk t).view.emb (ix2 p (0 : Fin 1))) = _ from congrArg _ h6
  rw [g0, g1, g2, g3, g4, g5, g6]

theorem inTile3 (t : Fin cfg3.N) (i : S100000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v120).slice (win3_7.rect t)).set ↔ _
  rw [View.set_slice_whole, Rect.mem_set_unit]
  exact Iff.rfl

theorem tiles3 (i : S100000x128.Idx) : ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨a0, b0, a1, b1, a2, b2, a3, b3, a4, b4, a5, b5, a6, b6, a7, b7⟩ := idx3 t
  have a7' : win3_7.index t (0 : Fin 2) = (i 0).val / 5000 := a7
  refine ⟨t, flush3_7 t, ?_⟩
  rw [inTile3]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 128 ≤ (i 1).val ∧ (i 1).val < win3_7.index t (1 : Fin 2) * 128 + 128; omega

/-- After region 3 its output array is the fused mean of its seven input arrays. -/
theorem array3 (c : Dev nD) : (dat3 V c).arrAt 7 cfg3.N
    = fused (V c main_v99) (V c main_v30) (V c main_v56) (V c main_v119) (V c main_v79) (V c main_v28) (V c main_v29) :=
  (dat3 V c).arrAt_eq_of_cover 7 _ (fun t _ => wrote3 V c t) tiles3

end Cert.KernelIdeal.Tiles

end
-- ==== Proof.Bridge.lean ====
/-
  The four places where the two programs spell one function differently.
    · Σ_k x(i₀, k) · w(k, i₁) is the host's contraction of axis 1 against axis 0 read at (i₀, i₁).
    · Column q of [WZ | Wα] is column q of WZ for q < 128 and column q - 128 of Wα otherwise, so the left and right halves
      of bc · [WZ | Wα] are bc · WZ and bc · Wα.
    · a · s = s · a, and a vector recast as a column and read in row p is the vector's entry p, which is also what the
      host's two broadcasts of the vector read in row p.
    · Dividing an extended real by the real 3 is multiplying it by the real 1/3.
-/
import proofs.«156599_j88467736363033_1_alg».proof.Proof.Reg1
import proofs.«156599_j88467736363033_1_alg».proof.Proof.Reg3
import proofs.«156599_j88467736363033_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tiles

open Cert.KernelIdeal Cert.KernelIdeal.Gen Idealize.ShloMosaic Idealize.ShloMosaic.TcCoe Idealize.ShloMosaic.ValueIdx
open Cert.ReferenceIdeal.Read

/-- The word 0x40400000 is the real number three. -/
theorem three : Ideal.ofBits .f32 0x40400000#32 = ((3 : ℝ) : EReal) := by
  simp [Ideal.ofBits, Ideal.ieee, -EReal.coe_mul]; norm_num

/-- A vector of 100000 entries recast as a column reads, in row p, the vector's entry p. -/
theorem colCast {α : Type} (y : S100000.Idx → α) (p : Fin 100000) :
    shapeCast S100000x1 y shapeCasts_S100000_S100000x1 (ix2 p (0 : Fin 1)) = y (ix1 p) :=
  shapeCast_apply y shapeCasts_S100000_S100000x1 (ix2 p (0 : Fin 1)) (ix1 p)
    (by rewrite [Shape.rowMajor_val_two, Shape.rowMajor_val_one]; show p.val = p.val * 1 + 0; omega)

/-- The row-tiled product is the reference's whole product. -/
theorem product_is_dot (x0 : S100000x128.Idx → EReal) (x4 : S128x128.Idx → EReal) :
    rowsTimes x0 x4 = val_main_v28 (F := Ideal) x0 x4 := by
  funext i
  rw [val_main_v28_apply]
  unfold rowsTimes
  refine Finset.sum_congr rfl fun k _ => ?_
  have el : lidx_main_v28 i k = ix2 (i 0) k := funext fun a => Fin.ext (by match a with | ⟨0, _⟩ => rfl | ⟨1, _⟩ => rfl)
  have er : ridx_main_v28 i k = ix2 k (i 1) := funext fun a => Fin.ext (by match a with | ⟨0, _⟩ => rfl | ⟨1, _⟩ => rfl)
  rw [el, er]
  rfl

/-- Columns 0..127 of the product against the two weight matrices side by side are the product against the first. -/
theorem left_half (x2 : S1000x128.Idx → EReal) (x5 x6 : S128x128.Idx → EReal) :
    extractStridedSlice S1000x128 ![0, 0]
        (wideProduct x2 (concatenate S128x256 1 [⟨S128x128, x5⟩, ⟨S128x128, x6⟩] concatenates_S128x128_S128x128_S128x256_d1))
        slices_S1000x256_S1000x128_0_0
      = val_main_v56 (F := Ideal) x2 x5 := by
  funext i
  obtain ⟨p, q, rfl⟩ : ∃ (p : Fin 1000) (q : Fin 128), i = ix2 p q := ⟨i 0, i 1, eq_ix2 i⟩
  rw [val_main_v56_apply]
  have hq : q.val < 256 := by have := q.isLt; omega
  refine (slice2_axis1_apply 0 _ slices_S1000x256_S1000x128_0_0 p q ⟨q.val, hq⟩ (Nat.zero_add _).symm).trans ?_
  unfold wideProduct
  refine Finset.sum_congr rfl fun k _ => ?_
  refine congrArg₂ _ ?_ ?_
  · exact congrArg x2 (funext fun a => Fin.ext (by match a with | ⟨0, _⟩ => rfl | ⟨1, _⟩ => rfl))
  · exact concatenate_pair_apply_left (t := S128x256) (s₁ := S128x128) (s₂ := S128x128) (1 : Fin 2) x5 x6 concatenates_S128x128_S128x128_S128x256_d1 _ rfl (ridx_main_v56 (ix2 p q) k)
      (fun b => by match b with | ⟨0, _⟩ => rfl | ⟨1, _⟩ => rfl)

/-- Columns 128..255 are the product against the second weight matrix. -/
theorem right_half (x2 : S1000x128.Idx → EReal) (x5 x6 : S128x128.Idx → EReal) :
    extractStridedSlice S1000x128 ![0, 128]
        (wideProduct x2 (concatenate S128x256 1 [⟨S128x128, x5⟩, ⟨S128x128, x6⟩] concatenates_S128x128_S128x128_S128x256_d1))
        slices_S1000x256_S1000x128_0_128
      = val_main_v82 (F := Ideal) x2 x6 := by
  funext i
  obtain ⟨p, q, rfl⟩ : ∃ (p : Fin 1000) (q : Fin 128), i = ix2 p q := ⟨i 0, i 1, eq_ix2 i⟩
  rw [val_main_v82_apply]
  have hq : 128 + q.val < 256 := by have := q.isLt; omega
  refine (slice2_axis1_apply 128 _ slices_S1000x256_S1000x128_0_128 p q ⟨128 + q.val, hq⟩ rfl).trans ?_
  unfold wideProduct
  refine Finset.sum_congr rfl fun k _ => ?_
  refine congrArg₂ _ ?_ ?_
  · exact congrArg x2 (funext fun a => Fin.ext (by match a with | ⟨0, _⟩ => rfl | ⟨1, _⟩ => rfl))
  · exact concatenate_pair_apply_right (t := S128x256) (s₁ := S128x128) (s₂ := S128x128) (1 : Fin 2) x5 x6 concatenates_S128x128_S128x128_S128x256_d1 _ rfl rfl (ridx_main_v82 (ix2 p q) k)
      (fun b hb => by match b with | ⟨0, _⟩ => rfl | ⟨1, _⟩ => exact absurd rfl hb)
      (by show q.val + 128 = 128 + q.val; omega)

/-- Scaling each row by the row normaliser is the reference's product with the broadcast normaliser. -/
theorem scaled_is_mul (x2 : S1000x128.Idx → EReal) (x3 : S100000.Idx → BitVec 32) (x6 : S128x128.Idx → EReal) :
    rowScaled (val_main_v104 (F := Ideal) x2 x3 x6) (shapeCast S100000x1 (val_main_v27 (F := Ideal)) shapeCasts_S100000_S100000x1)
      = val_main_v107 (F := Ideal) x2 x3 x6 := by
  funext i
  rw [val_main_v107_apply, val_main_v106_apply, val_main_v105_apply]
  unfold rowScaled
  have c27 := colCast (val_main_v27 (F := Ideal)) (i 0)
  rw [c27]
  have e : idx_main_v105 (idx_main_v106 i) = ix1 (i 0) := funext fun a => by match a with | ⟨0, _⟩ => rfl
  rw [e]
  exact mul_comm _ _

/-- The fused mean over the kernel's seven arrays is the reference's last value. -/
theorem fused_is_reference (x0 : S100000x128.Idx → EReal) (x1 : S2x1600000.Idx → BitVec 32) (x2 : S1000x128.Idx → EReal)
    (x3 : S100000.Idx → BitVec 32) (x4 x5 x6 : S128x128.Idx → EReal) :
    fused (val_main_v48 (F := Ideal) x0 x1 x4) (val_main_v28 (F := Ideal) x0 x4) (val_main_v78 (F := Ideal) x2 x3 x5)
        (val_main_v127 (F := Ideal) x1 x2 x3 x6) (val_main_v107 (F := Ideal) x2 x3 x6)
        (shapeCast S100000x1 (val_main_v11 (F := Ideal) x1) shapeCasts_S100000_S100000x1)
        (shapeCast S100000x1 (val_main_v27 (F := Ideal)) shapeCasts_S100000_S100000x1)
      = val_main_v138 (F := Ideal) x0 x1 x2 x3 x4 x5 x6 := by
  funext i
  rw [val_main_v138_apply, val_main_v137_apply, val_main_cst_29_apply, val_main_v136_apply, val_main_v135_apply,
    val_main_v134_apply, val_main_v133_apply, val_main_v128_apply, val_main_v132_apply, val_main_v131_apply,
    val_main_v130_apply, val_main_v129_apply, val_main_v55_apply, val_main_v54_apply, val_main_v49_apply,
    val_main_v53_apply, val_main_v52_apply, val_main_v51_apply, val_main_v50_apply, val_main_v81_apply,
    val_main_v80_apply, val_main_v79_apply]
  unfold fused
  have c11 := colCast (val_main_v11 (F := Ideal) x1) (i 0)
  have c27 := colCast (val_main_v27 (F := Ideal)) (i 0)
  rw [c11, c27]
  have e49 : idx_main_v49 (idx_main_v54 i) = ix1 (i 0) := funext fun a => by match a with | ⟨0, _⟩ => rfl
  have e50 : idx_main_v50 (idx_main_v51 i) = ix1 (i 0) := funext fun a => by match a with | ⟨0, _⟩ => rfl
  have e128 : idx_main_v128 (idx_main_v133 i) = ix1 (i 0) := funext fun a => by match a with | ⟨0, _⟩ => rfl
  have e129 : idx_main_v129 (idx_main_v130 i) = ix1 (i 0) := funext fun a => by match a with | ⟨0, _⟩ => rfl
  have e79 : idx_main_v79 (idx_main_v80 i) = ix1 (i 0) := funext fun a => by match a with | ⟨0, _⟩ => rfl
  rw [e49, e50, e128, e129, e79]
  simp only [Ideal.hostDivf_def, Ideal.mulf_def, Ideal.addf_def, Ideal.ofBits_def, three,
    Ideal.div_coe (by norm_num : (3 : ℝ) ≠ 0)]
  rfl

end Cert.KernelIdeal.Tiles

end
-- ==== Proof.Stretch0.lean ====
import proofs.«156599_j88467736363033_1_alg».proof.Proof.Gen.KernelIdeal.Launch
import proofs.«156599_j88467736363033_1_alg».proof.Proof.Gen.ReferenceIdeal.Read
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Idealize.SL.Sem
open Cert.ReferenceIdeal.Read (val_main_v1 val_main_v3 val_main_v11 val_main_v19 val_main_v27)

variable (W : Valuation τ sig (Elt Ideal))

/-! The first stretch of host operations: the edge rows and columns, the three normalisers and the two normaliser
    columns, each as the reference's own stage of the argument arrays. -/

theorem s0_v1 : StableHlo.after hostOps0 W (Proc.devRef .tc main_v1) = val_main_v1 (F := Ideal) (W (Proc.devRef .tc main_arg1)) := by
  after_results_simp
  rfl
theorem s0_v3 : StableHlo.after hostOps0 W (Proc.devRef .tc main_v3) = val_main_v3 (F := Ideal) (W (Proc.devRef .tc main_arg1)) := by
  after_results_simp
  rfl
theorem s0_v11 : StableHlo.after hostOps0 W (Proc.devRef .tc main_v11) = val_main_v11 (F := Ideal) (W (Proc.devRef .tc main_arg1)) := by
  after_results_simp
  rfl
theorem s0_v19 : StableHlo.after hostOps0 W (Proc.devRef .tc main_v19) = val_main_v19 (F := Ideal) (W (Proc.devRef .tc main_arg3)) := by
  after_results_simp
  rfl
theorem s0_v28 : StableHlo.after hostOps0 W (Proc.devRef .tc main_v28)
    = shapeCast S100000x1 (val_main_v11 (F := Ideal) (W (Proc.devRef .tc main_arg1))) shapeCasts_S100000_S100000x1 := by
  after_results_simp
  rfl
theorem s0_v29 : StableHlo.after hostOps0 W (Proc.devRef .tc main_v29)
    = shapeCast S100000x1 (val_main_v27 (F := Ideal)) shapeCasts_S100000_S100000x1 := by
  after_results_simp
  rfl
theorem s0_keep_arg0 : StableHlo.after hostOps0 W (Proc.devRef .tc main_arg0) = W (Proc.devRef .tc main_arg0) := by
  after_results_simp
theorem s0_keep_arg2 : StableHlo.after hostOps0 W (Proc.devRef .tc main_arg2) = W (Proc.devRef .tc main_arg2) := by
  after_results_simp
theorem s0_keep_arg3 : StableHlo.after hostOps0 W (Proc.devRef .tc main_arg3) = W (Proc.devRef .tc main_arg3) := by
  after_results_simp
theorem s0_keep_arg4 : StableHlo.after hostOps0 W (Proc.devRef .tc main_arg4) = W (Proc.devRef .tc main_arg4) := by
  after_results_simp
theorem s0_keep_arg5 : StableHlo.after hostOps0 W (Proc.devRef .tc main_arg5) = W (Proc.devRef .tc main_arg5) := by
  after_results_simp
theorem s0_keep_arg6 : StableHlo.after hostOps0 W (Proc.devRef .tc main_arg6) = W (Proc.devRef .tc main_arg6) := by
  after_results_simp

end Cert.KernelIdeal.Host

end
-- ==== Proof.Stretch1.lean ====
import proofs.«156599_j88467736363033_1_alg».proof.Proof.Gen.KernelIdeal.Launch
import proofs.«156599_j88467736363033_1_alg».proof.Proof.Gen.ReferenceIdeal.Read
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Idealize.SL.Sem

variable (W : Valuation τ sig (Elt Ideal))

/-! The second stretch: the two weight matrices side by side. -/

theorem s1_v31 : StableHlo.after hostOps1 W (Proc.devRef .tc main_v31)
    = concatenate S128x256 1 [⟨S128x128, W (Proc.devRef .tc main_arg5)⟩, ⟨S128x128, W (Proc.devRef .tc main_arg6)⟩] concatenates_S128x128_S128x128_S128x256_d1 := by
  after_results_simp
theorem s1_keep_arg2 : StableHlo.after hostOps1 W (Proc.devRef .tc main_arg2) = W (Proc.devRef .tc main_arg2) := by
  after_results_simp
theorem s1_keep_arg3 : StableHlo.after hostOps1 W (Proc.devRef .tc main_arg3) = W (Proc.devRef .tc main_arg3) := by
  after_results_simp
theorem s1_keep_v1 : StableHlo.after hostOps1 W (Proc.devRef .tc main_v1) = W (Proc.devRef .tc main_v1) := by
  after_results_simp
theorem s1_keep_v3 : StableHlo.after hostOps1 W (Proc.devRef .tc main_v3) = W (Proc.devRef .tc main_v3) := by
  after_results_simp
theorem s1_keep_v11 : StableHlo.after hostOps1 W (Proc.devRef .tc main_v11) = W (Proc.devRef .tc main_v11) := by
  after_results_simp
theorem s1_keep_v19 : StableHlo.after hostOps1 W (Proc.devRef .tc main_v19) = W (Proc.devRef .tc main_v19) := by
  after_results_simp
theorem s1_keep_v28 : StableHlo.after hostOps1 W (Proc.devRef .tc main_v28) = W (Proc.devRef .tc main_v28) := by
  after_results_simp
theorem s1_keep_v29 : StableHlo.after hostOps1 W (Proc.devRef .tc main_v29) = W (Proc.devRef .tc main_v29) := by
  after_results_simp
theorem s1_keep_v30 : StableHlo.after hostOps1 W (Proc.devRef .tc main_v30) = W (Proc.devRef .tc main_v30) := by
  after_results_simp

end Cert.KernelIdeal.Host

end
-- ==== Proof.Stretch2.lean ====
import proofs.«156599_j88467736363033_1_alg».proof.Proof.Gen.KernelIdeal.Launch
import proofs.«156599_j88467736363033_1_alg».proof.Proof.Gen.ReferenceIdeal.Read
import proofs.«156599_j88467736363033_1_alg».proof.Proof.Bridge
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Idealize.SL.Sem
open Cert.KernelIdeal.Tiles
open Cert.ReferenceIdeal.Read (val_main_v19 val_main_v56 val_main_v82 val_main_v78 val_main_v104)

variable (W : Valuation τ sig (Elt Ideal))

/-! The third stretch: the two halves of the wide product gathered by assignment, scaled by the column normaliser, with
    the first thousand rows accumulated — the reference's own stages once each half is the reference's product. -/

theorem s2_v56 (x2 : S1000x128.Idx → EReal) (x3 : S100000.Idx → BitVec 32) (x5 x6 : S128x128.Idx → EReal)
    (h32 : W (Proc.devRef .tc main_v32) = wideProduct x2 (concatenate S128x256 1 [⟨S128x128, x5⟩, ⟨S128x128, x6⟩] concatenates_S128x128_S128x128_S128x256_d1))
    (h19 : W (Proc.devRef .tc main_v19) = val_main_v19 (F := Ideal) x3) (h3 : W (Proc.devRef .tc main_arg3) = x3) :
    StableHlo.after hostOps2 W (Proc.devRef .tc main_v56) = val_main_v78 (F := Ideal) x2 x3 x5 := by
  after_results_simp
  rw [h32, h19, h3, left_half]
  rfl

theorem s2_v78 (x2 : S1000x128.Idx → EReal) (x3 : S100000.Idx → BitVec 32) (x5 x6 : S128x128.Idx → EReal)
    (h32 : W (Proc.devRef .tc main_v32) = wideProduct x2 (concatenate S128x256 1 [⟨S128x128, x5⟩, ⟨S128x128, x6⟩] concatenates_S128x128_S128x128_S128x256_d1))
    (h19 : W (Proc.devRef .tc main_v19) = val_main_v19 (F := Ideal) x3) (h3 : W (Proc.devRef .tc main_arg3) = x3) :
    StableHlo.after hostOps2 W (Proc.devRef .tc main_v78) = val_main_v104 (F := Ideal) x2 x3 x6 := by
  after_results_simp
  rw [h32, h19, h3, right_half]
  rfl
theorem s2_keep_v1 : StableHlo.after hostOps2 W (Proc.devRef .tc main_v1) = W (Proc.devRef .tc main_v1) := by
  after_results_simp
theorem s2_keep_v3 : StableHlo.after hostOps2 W (Proc.devRef .tc main_v3) = W (Proc.devRef .tc main_v3) := by
  after_results_simp
theorem s2_keep_v11 : StableHlo.after hostOps2 W (Proc.devRef .tc main_v11) = W (Proc.devRef .tc main_v11) := by
  after_results_simp
theorem s2_keep_v28 : StableHlo.after hostOps2 W (Proc.devRef .tc main_v28) = W (Proc.devRef .tc main_v28) := by
  after_results_simp
theorem s2_keep_v29 : StableHlo.after hostOps2 W (Proc.devRef .tc main_v29) = W (Proc.devRef .tc main_v29) := by
  after_results_simp
theorem s2_keep_v30 : StableHlo.after hostOps2 W (Proc.devRef .tc main_v30) = W (Proc.devRef .tc main_v30) := by
  after_results_simp

end Cert.KernelIdeal.Host

end
-- ==== Proof.Stretch3.lean ====
import proofs.«156599_j88467736363033_1_alg».proof.Proof.Gen.KernelIdeal.Launch
import proofs.«156599_j88467736363033_1_alg».proof.Proof.Gen.ReferenceIdeal.Read
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Idealize.SL.Sem
open Cert.ReferenceIdeal.Read (val_main_v1 val_main_v3 val_main_v11 val_main_v28 val_main_v48 val_main_v107 val_main_v127)

variable (W : Valuation τ sig (Elt Ideal))

/-! The fourth stretch: the two neighbour aggregations, the reference's own stages once their operands are. -/

theorem s3_v99 (x0 : S100000x128.Idx → EReal) (x1 : S2x1600000.Idx → BitVec 32) (x4 : S128x128.Idx → EReal)
    (h30 : W (Proc.devRef .tc main_v30) = val_main_v28 (F := Ideal) x0 x4) (h11 : W (Proc.devRef .tc main_v11) = val_main_v11 (F := Ideal) x1)
    (h3 : W (Proc.devRef .tc main_v3) = val_main_v3 (F := Ideal) x1) (h1 : W (Proc.devRef .tc main_v1) = val_main_v1 (F := Ideal) x1) :
    StableHlo.after hostOps3 W (Proc.devRef .tc main_v99) = val_main_v48 (F := Ideal) x0 x1 x4 := by
  after_results_simp
  rw [h30, h11, h3, h1]
  rfl

theorem s3_v119 (x1 : S2x1600000.Idx → BitVec 32) (x2 : S1000x128.Idx → EReal) (x3 : S100000.Idx → BitVec 32) (x6 : S128x128.Idx → EReal)
    (h79 : W (Proc.devRef .tc main_v79) = val_main_v107 (F := Ideal) x2 x3 x6) (h11 : W (Proc.devRef .tc main_v11) = val_main_v11 (F := Ideal) x1)
    (h3 : W (Proc.devRef .tc main_v3) = val_main_v3 (F := Ideal) x1) (h1 : W (Proc.devRef .tc main_v1) = val_main_v1 (F := Ideal) x1) :
    StableHlo.after hostOps3 W (Proc.devRef .tc main_v119) = val_main_v127 (F := Ideal) x1 x2 x3 x6 := by
  after_results_simp
  rw [h79, h11, h3, h1]
  rfl
theorem s3_keep_v28 : StableHlo.after hostOps3 W (Proc.devRef .tc main_v28) = W (Proc.devRef .tc main_v28) := by
  after_results_simp
theorem s3_keep_v29 : StableHlo.after hostOps3 W (Proc.devRef .tc main_v29) = W (Proc.devRef .tc main_v29) := by
  after_results_simp
theorem s3_keep_v30 : StableHlo.after hostOps3 W (Proc.devRef .tc main_v30) = W (Proc.devRef .tc main_v30) := by
  after_results_simp
theorem s3_keep_v56 : StableHlo.after hostOps3 W (Proc.devRef .tc main_v56) = W (Proc.devRef .tc main_v56) := by
  after_results_simp
theorem s3_keep_v79 : StableHlo.after hostOps3 W (Proc.devRef .tc main_v79) = W (Proc.devRef .tc main_v79) := by
  after_results_simp

end Cert.KernelIdeal.Host

end
-- ==== Proof.Fold.lean ====
/-
  The fold through the eight segments, one array at a time. After each segment, every array that a later segment reads
  is written as a stage of the reference applied to the launch contents of the arguments: the host operations of the two
  programs are the same operations on equal operands, a region's output is the whole-array function its tiles restrict,
  and an array no operation of a segment writes is carried through it unchanged. The last line is the claim's equation:
  the kernel's result array is the reference's last stage.
-/
import proofs.«156599_j88467736363033_1_alg».proof.Proof.Bridge
import proofs.«156599_j88467736363033_1_alg».proof.Proof.Stretch0
import proofs.«156599_j88467736363033_1_alg».proof.Proof.Stretch1
import proofs.«156599_j88467736363033_1_alg».proof.Proof.Stretch2
import proofs.«156599_j88467736363033_1_alg».proof.Proof.Stretch3

set_option maxRecDepth 16384

noncomputable section

namespace Cert.KernelIdeal.Fold

open Cert.KernelIdeal Cert.KernelIdeal.Gen Idealize.ShloMosaic Idealize.ShloMosaic.TcCoe Idealize.ShloMosaic.StableHlo
open Idealize.SL.Sem
open Cert.KernelIdeal.Tiles Cert.KernelIdeal.Host
open Cert.ReferenceIdeal.Read (val_main_v1 val_main_v3 val_main_v11 val_main_v19 val_main_v27 val_main_v28 val_main_v48 val_main_v78
  val_main_v104 val_main_v107 val_main_v127 val_main_v138)

variable (m : (ℓ : Loc nD τ sig) → Buf (Elt Ideal) ℓ) (ρ : Dev nD → PrngReg) (c : Dev nD)

/-! Through the eight segments, the contents of every array a later segment reads, each as a stage of the reference
    applied to the launch contents of the arguments. -/

/-! ## After the first stretch -/
theorem a1_v1 : W1 m ρ c (Proc.devRef .tc main_v1) = val_main_v1 (F := Ideal) (m ((c : Thread nD τ).loc main_arg1)) := s0_v1 (W0 m ρ c)
theorem a1_v3 : W1 m ρ c (Proc.devRef .tc main_v3) = val_main_v3 (F := Ideal) (m ((c : Thread nD τ).loc main_arg1)) := s0_v3 (W0 m ρ c)
theorem a1_v11 : W1 m ρ c (Proc.devRef .tc main_v11) = val_main_v11 (F := Ideal) (m ((c : Thread nD τ).loc main_arg1)) := s0_v11 (W0 m ρ c)
theorem a1_v19 : W1 m ρ c (Proc.devRef .tc main_v19) = val_main_v19 (F := Ideal) (m ((c : Thread nD τ).loc main_arg3)) := s0_v19 (W0 m ρ c)
theorem a1_v28 : W1 m ρ c (Proc.devRef .tc main_v28) = shapeCast S100000x1 (val_main_v11 (F := Ideal) (m ((c : Thread nD τ).loc main_arg1))) shapeCasts_S100000_S100000x1 := s0_v28 (W0 m ρ c)
theorem a1_v29 : W1 m ρ c (Proc.devRef .tc main_v29) = shapeCast S100000x1 (val_main_v27 (F := Ideal)) shapeCasts_S100000_S100000x1 := s0_v29 (W0 m ρ c)
theorem a1_arg0 : W1 m ρ c (Proc.devRef .tc main_arg0) = (m ((c : Thread nD τ).loc main_arg0)) := s0_keep_arg0 (W0 m ρ c)
theorem a1_arg2 : W1 m ρ c (Proc.devRef .tc main_arg2) = (m ((c : Thread nD τ).loc main_arg2)) := s0_keep_arg2 (W0 m ρ c)
theorem a1_arg3 : W1 m ρ c (Proc.devRef .tc main_arg3) = (m ((c : Thread nD τ).loc main_arg3)) := s0_keep_arg3 (W0 m ρ c)
theorem a1_arg4 : W1 m ρ c (Proc.devRef .tc main_arg4) = (m ((c : Thread nD τ).loc main_arg4)) := s0_keep_arg4 (W0 m ρ c)
theorem a1_arg5 : W1 m ρ c (Proc.devRef .tc main_arg5) = (m ((c : Thread nD τ).loc main_arg5)) := s0_keep_arg5 (W0 m ρ c)
theorem a1_arg6 : W1 m ρ c (Proc.devRef .tc main_arg6) = (m ((c : Thread nD τ).loc main_arg6)) := s0_keep_arg6 (W0 m ρ c)

/-! ## After the first region: the row-tiled product -/
theorem a2_arg2 : W2 m ρ c (Proc.devRef .tc main_arg2) = (m ((c : Thread nD τ).loc main_arg2)) :=
  (W2_of_ne m ρ c main_arg2 (by decide)).trans (a1_arg2 m ρ c)
theorem a2_arg3 : W2 m ρ c (Proc.devRef .tc main_arg3) = (m ((c : Thread nD τ).loc main_arg3)) :=
  (W2_of_ne m ρ c main_arg3 (by decide)).trans (a1_arg3 m ρ c)
theorem a2_arg5 : W2 m ρ c (Proc.devRef .tc main_arg5) = (m ((c : Thread nD τ).loc main_arg5)) :=
  (W2_of_ne m ρ c main_arg5 (by decide)).trans (a1_arg5 m ρ c)
theorem a2_arg6 : W2 m ρ c (Proc.devRef .tc main_arg6) = (m ((c : Thread nD τ).loc main_arg6)) :=
  (W2_of_ne m ρ c main_arg6 (by decide)).trans (a1_arg6 m ρ c)
theorem a2_v1 : W2 m ρ c (Proc.devRef .tc main_v1) = val_main_v1 (F := Ideal) (m ((c : Thread nD τ).loc main_arg1)) :=
  (W2_of_ne m ρ c main_v1 (by decide)).trans (a1_v1 m ρ c)
theorem a2_v3 : W2 m ρ c (Proc.devRef .tc main_v3) = val_main_v3 (F := Ideal) (m ((c : Thread nD τ).loc main_arg1)) :=
  (W2_of_ne m ρ c main_v3 (by decide)).trans (a1_v3 m ρ c)
theorem a2_v11 : W2 m ρ c (Proc.devRef .tc main_v11) = val_main_v11 (F := Ideal) (m ((c : Thread nD τ).loc main_arg1)) :=
  (W2_of_ne m ρ c main_v11 (by decide)).trans (a1_v11 m ρ c)
theorem a2_v19 : W2 m ρ c (Proc.devRef .tc main_v19) = val_main_v19 (F := Ideal) (m ((c : Thread nD τ).loc main_arg3)) :=
  (W2_of_ne m ρ c main_v19 (by decide)).trans (a1_v19 m ρ c)
theorem a2_v28 : W2 m ρ c (Proc.devRef .tc main_v28) = shapeCast S100000x1 (val_main_v11 (F := Ideal) (m ((c : Thread nD τ).loc main_arg1))) shapeCasts_S100000_S100000x1 :=
  (W2_of_ne m ρ c main_v28 (by decide)).trans (a1_v28 m ρ c)
theorem a2_v29 : W2 m ρ c (Proc.devRef .tc main_v29) = shapeCast S100000x1 (val_main_v27 (F := Ideal)) shapeCasts_S100000_S100000x1 :=
  (W2_of_ne m ρ c main_v29 (by decide)).trans (a1_v29 m ρ c)
theorem a2_v30 : W2 m ρ c (Proc.devRef .tc main_v30) = val_main_v28 (F := Ideal) (m ((c : Thread nD τ).loc main_arg0)) (m ((c : Thread nD τ).loc main_arg4)) :=
  (W2_arr m ρ c 2).trans ((array0 (V1 m ρ) c).trans
    ((congrArg₂ rowsTimes (a1_arg0 m ρ c) (a1_arg4 m ρ c)).trans (product_is_dot _ _)))

/-! ## After the second stretch -/
theorem a3_v31 : W3 m ρ c (Proc.devRef .tc main_v31) = concatenate S128x256 1 [⟨S128x128, (m ((c : Thread nD τ).loc main_arg5) : S128x128.Idx → EReal)⟩, ⟨S128x128, (m ((c : Thread nD τ).loc main_arg6) : S128x128.Idx → EReal)⟩] concatenates_S128x128_S128x128_S128x256_d1 :=
  (s1_v31 (W2 m ρ c)).trans (by rw [a2_arg5 m ρ c, a2_arg6 m ρ c])
theorem a3_arg2 : W3 m ρ c (Proc.devRef .tc main_arg2) = (m ((c : Thread nD τ).loc main_arg2)) :=
  (s1_keep_arg2 (W2 m ρ c)).trans (a2_arg2 m ρ c)
theorem a3_arg3 : W3 m ρ c (Proc.devRef .tc main_arg3) = (m ((c : Thread nD τ).loc main_arg3)) :=
  (s1_keep_arg3 (W2 m ρ c)).trans (a2_arg3 m ρ c)
theorem a3_v1 : W3 m ρ c (Proc.devRef .tc main_v1) = val_main_v1 (F := Ideal) (m ((c : Thread nD τ).loc main_arg1)) :=
  (s1_keep_v1 (W2 m ρ c)).trans (a2_v1 m ρ c)
theorem a3_v3 : W3 m ρ c (Proc.devRef .tc main_v3) = val_main_v3 (F := Ideal) (m ((c : Thread nD τ).loc main_arg1)) :=
  (s1_keep_v3 (W2 m ρ c)).trans (a2_v3 m ρ c)
theorem a3_v11 : W3 m ρ c (Proc.devRef .tc main_v11) = val_main_v11 (F := Ideal) (m ((c : Thread nD τ).loc main_arg1)) :=
  (s1_keep_v11 (W2 m ρ c)).trans (a2_v11 m ρ c)
theorem a3_v19 : W3 m ρ c (Proc.devRef .tc main_v19) = val_main_v19 (F := Ideal) (m ((c : Thread nD τ).loc main_arg3)) :=
  (s1_keep_v19 (W2 m ρ c)).trans (a2_v19 m ρ c)
theorem a3_v28 : W3 m ρ c (Proc.devRef .tc main_v28) = shapeCast S100000x1 (val_main_v11 (F := Ideal) (m ((c : Thread nD τ).loc main_arg1))) shapeCasts_S100000_S100000x1 :=
  (s1_keep_v28 (W2 m ρ c)).trans (a2_v28 m ρ c)
theorem a3_v29 : W3 m ρ c (Proc.devRef .tc main_v29) = shapeCast S100000x1 (val_main_v27 (F := Ideal)) shapeCasts_S100000_S100000x1 :=
  (s1_keep_v29 (W2 m ρ c)).trans (a2_v29 m ρ c)
theorem a3_v30 : W3 m ρ c (Proc.devRef .tc main_v30) = val_main_v28 (F := Ideal) (m ((c : Thread nD τ).loc main_arg0)) (m ((c : Thread nD τ).loc main_arg4)) :=
  (s1_keep_v30 (W2 m ρ c)).trans (a2_v30 m ρ c)

/-! ## After the second region: the wide product -/
theorem a4_v32 : W4 m ρ c (Proc.devRef .tc main_v32) = wideProduct (m ((c : Thread nD τ).loc main_arg2)) (concatenate S128x256 1 [⟨S128x128, (m ((c : Thread nD τ).loc main_arg5) : S128x128.Idx → EReal)⟩, ⟨S128x128, (m ((c : Thread nD τ).loc main_arg6) : S128x128.Idx → EReal)⟩] concatenates_S128x128_S128x128_S128x256_d1) :=
  (W4_arr m ρ c 2).trans ((array1 (V3 m ρ) c).trans (congrArg₂ wideProduct (a3_arg2 m ρ c) (a3_v31 m ρ c)))
theorem a4_arg3 : W4 m ρ c (Proc.devRef .tc main_arg3) = (m ((c : Thread nD τ).loc main_arg3)) :=
  (W4_of_ne m ρ c main_arg3 (by decide)).trans (a3_arg3 m ρ c)
theorem a4_v1 : W4 m ρ c (Proc.devRef .tc main_v1) = val_main_v1 (F := Ideal) (m ((c : Thread nD τ).loc main_arg1)) :=
  (W4_of_ne m ρ c main_v1 (by decide)).trans (a3_v1 m ρ c)
theorem a4_v3 : W4 m ρ c (Proc.devRef .tc main_v3) = val_main_v3 (F := Ideal) (m ((c : Thread nD τ).loc main_arg1)) :=
  (W4_of_ne m ρ c main_v3 (by decide)).trans (a3_v3 m ρ c)
theorem a4_v11 : W4 m ρ c (Proc.devRef .tc main_v11) = val_main_v11 (F := Ideal) (m ((c : Thread nD τ).loc main_arg1)) :=
  (W4_of_ne m ρ c main_v11 (by decide)).trans (a3_v11 m ρ c)
theorem a4_v19 : W4 m ρ c (Proc.devRef .tc main_v19) = val_main_v19 (F := Ideal) (m ((c : Thread nD τ).loc main_arg3)) :=
  (W4_of_ne m ρ c main_v19 (by decide)).trans (a3_v19 m ρ c)
theorem a4_v28 : W4 m ρ c (Proc.devRef .tc main_v28) = shapeCast S100000x1 (val_main_v11 (F := Ideal) (m ((c : Thread nD τ).loc main_arg1))) shapeCasts_S100000_S100000x1 :=
  (W4_of_ne m ρ c main_v28 (by decide)).trans (a3_v28 m ρ c)
theorem a4_v29 : W4 m ρ c (Proc.devRef .tc main_v29) = shapeCast S100000x1 (val_main_v27 (F := Ideal)) shapeCasts_S100000_S100000x1 :=
  (W4_of_ne m ρ c main_v29 (by decide)).trans (a3_v29 m ρ c)
theorem a4_v30 : W4 m ρ c (Proc.devRef .tc main_v30) = val_main_v28 (F := Ideal) (m ((c : Thread nD τ).loc main_arg0)) (m ((c : Thread nD τ).loc main_arg4)) :=
  (W4_of_ne m ρ c main_v30 (by decide)).trans (a3_v30 m ρ c)

/-! ## After the third stretch -/
theorem a5_v56 : W5 m ρ c (Proc.devRef .tc main_v56) = val_main_v78 (F := Ideal) (m ((c : Thread nD τ).loc main_arg2)) (m ((c : Thread nD τ).loc main_arg3)) (m ((c : Thread nD τ).loc main_arg5)) :=
  s2_v56 (W4 m ρ c) _ _ _ _ (a4_v32 m ρ c) (a4_v19 m ρ c) (a4_arg3 m ρ c)
theorem a5_v78 : W5 m ρ c (Proc.devRef .tc main_v78) = val_main_v104 (F := Ideal) (m ((c : Thread nD τ).loc main_arg2)) (m ((c : Thread nD τ).loc main_arg3)) (m ((c : Thread nD τ).loc main_arg6)) :=
  s2_v78 (W4 m ρ c) _ _ _ _ (a4_v32 m ρ c) (a4_v19 m ρ c) (a4_arg3 m ρ c)
theorem a5_v1 : W5 m ρ c (Proc.devRef .tc main_v1) = val_main_v1 (F := Ideal) (m ((c : Thread nD τ).loc main_arg1)) :=
  (s2_keep_v1 (W4 m ρ c)).trans (a4_v1 m ρ c)
theorem a5_v3 : W5 m ρ c (Proc.devRef .tc main_v3) = val_main_v3 (F := Ideal) (m ((c : Thread nD τ).loc main_arg1)) :=
  (s2_keep_v3 (W4 m ρ c)).trans (a4_v3 m ρ c)
theorem a5_v11 : W5 m ρ c (Proc.devRef .tc main_v11) = val_main_v11 (F := Ideal) (m ((c : Thread nD τ).loc main_arg1)) :=
  (s2_keep_v11 (W4 m ρ c)).trans (a4_v11 m ρ c)
theorem a5_v28 : W5 m ρ c (Proc.devRef .tc main_v28) = shapeCast S100000x1 (val_main_v11 (F := Ideal) (m ((c : Thread nD τ).loc main_arg1))) shapeCasts_S100000_S100000x1 :=
  (s2_keep_v28 (W4 m ρ c)).trans (a4_v28 m ρ c)
theorem a5_v29 : W5 m ρ c (Proc.devRef .tc main_v29) = shapeCast S100000x1 (val_main_v27 (F := Ideal)) shapeCasts_S100000_S100000x1 :=
  (s2_keep_v29 (W4 m ρ c)).trans (a4_v29 m ρ c)
theorem a5_v30 : W5 m ρ c (Proc.devRef .tc main_v30) = val_main_v28 (F := Ideal) (m ((c : Thread nD τ).loc main_arg0)) (m ((c : Thread nD τ).loc main_arg4)) :=
  (s2_keep_v30 (W4 m ρ c)).trans (a4_v30 m ρ c)

/-! ## After the third region: the rows scaled -/
theorem a6_v79 : W6 m ρ c (Proc.devRef .tc main_v79) = val_main_v107 (F := Ideal) (m ((c : Thread nD τ).loc main_arg2)) (m ((c : Thread nD τ).loc main_arg3)) (m ((c : Thread nD τ).loc main_arg6)) :=
  (W6_arr m ρ c 2).trans ((array2 (V5 m ρ) c).trans
    ((congrArg₂ rowScaled (a5_v78 m ρ c) (a5_v29 m ρ c)).trans (scaled_is_mul _ _ _)))
theorem a6_v1 : W6 m ρ c (Proc.devRef .tc main_v1) = val_main_v1 (F := Ideal) (m ((c : Thread nD τ).loc main_arg1)) :=
  (W6_of_ne m ρ c main_v1 (by decide)).trans (a5_v1 m ρ c)
theorem a6_v3 : W6 m ρ c (Proc.devRef .tc main_v3) = val_main_v3 (F := Ideal) (m ((c : Thread nD τ).loc main_arg1)) :=
  (W6_of_ne m ρ c main_v3 (by decide)).trans (a5_v3 m ρ c)
theorem a6_v11 : W6 m ρ c (Proc.devRef .tc main_v11) = val_main_v11 (F := Ideal) (m ((c : Thread nD τ).loc main_arg1)) :=
  (W6_of_ne m ρ c main_v11 (by decide)).trans (a5_v11 m ρ c)
theorem a6_v28 : W6 m ρ c (Proc.devRef .tc main_v28) = shapeCast S100000x1 (val_main_v11 (F := Ideal) (m ((c : Thread nD τ).loc main_arg1))) shapeCasts_S100000_S100000x1 :=
  (W6_of_ne m ρ c main_v28 (by decide)).trans (a5_v28 m ρ c)
theorem a6_v29 : W6 m ρ c (Proc.devRef .tc main_v29) = shapeCast S100000x1 (val_main_v27 (F := Ideal)) shapeCasts_S100000_S100000x1 :=
  (W6_arr m ρ c 1).trans ((((dat2 (V5 m ρ) c).arrAt_in 1 rfl _).trans (A_eq2 (V5 m ρ) c 1)).trans (a5_v29 m ρ c))
theorem a6_v30 : W6 m ρ c (Proc.devRef .tc main_v30) = val_main_v28 (F := Ideal) (m ((c : Thread nD τ).loc main_arg0)) (m ((c : Thread nD τ).loc main_arg4)) :=
  (W6_of_ne m ρ c main_v30 (by decide)).trans (a5_v30 m ρ c)
theorem a6_v56 : W6 m ρ c (Proc.devRef .tc main_v56) = val_main_v78 (F := Ideal) (m ((c : Thread nD τ).loc main_arg2)) (m ((c : Thread nD τ).loc main_arg3)) (m ((c : Thread nD τ).loc main_arg5)) :=
  (W6_of_ne m ρ c main_v56 (by decide)).trans (a5_v56 m ρ c)

/-! ## After the fourth stretch -/
theorem a7_v99 : W7 m ρ c (Proc.devRef .tc main_v99) = val_main_v48 (F := Ideal) (m ((c : Thread nD τ).loc main_arg0)) (m ((c : Thread nD τ).loc main_arg1)) (m ((c : Thread nD τ).loc main_arg4)) :=
  s3_v99 (W6 m ρ c) _ _ _ (a6_v30 m ρ c) (a6_v11 m ρ c) (a6_v3 m ρ c) (a6_v1 m ρ c)
theorem a7_v119 : W7 m ρ c (Proc.devRef .tc main_v119) = val_main_v127 (F := Ideal) (m ((c : Thread nD τ).loc main_arg1)) (m ((c : Thread nD τ).loc main_arg2)) (m ((c : Thread nD τ).loc main_arg3)) (m ((c : Thread nD τ).loc main_arg6)) :=
  s3_v119 (W6 m ρ c) _ _ _ _ (a6_v79 m ρ c) (a6_v11 m ρ c) (a6_v3 m ρ c) (a6_v1 m ρ c)
theorem a7_v28 : W7 m ρ c (Proc.devRef .tc main_v28) = shapeCast S100000x1 (val_main_v11 (F := Ideal) (m ((c : Thread nD τ).loc main_arg1))) shapeCasts_S100000_S100000x1 :=
  (s3_keep_v28 (W6 m ρ c)).trans (a6_v28 m ρ c)
theorem a7_v29 : W7 m ρ c (Proc.devRef .tc main_v29) = shapeCast S100000x1 (val_main_v27 (F := Ideal)) shapeCasts_S100000_S100000x1 :=
  (s3_keep_v29 (W6 m ρ c)).trans (a6_v29 m ρ c)
theorem a7_v30 : W7 m ρ c (Proc.devRef .tc main_v30) = val_main_v28 (F := Ideal) (m ((c : Thread nD τ).loc main_arg0)) (m ((c : Thread nD τ).loc main_arg4)) :=
  (s3_keep_v30 (W6 m ρ c)).trans (a6_v30 m ρ c)
theorem a7_v56 : W7 m ρ c (Proc.devRef .tc main_v56) = val_main_v78 (F := Ideal) (m ((c : Thread nD τ).loc main_arg2)) (m ((c : Thread nD τ).loc main_arg3)) (m ((c : Thread nD τ).loc main_arg5)) :=
  (s3_keep_v56 (W6 m ρ c)).trans (a6_v56 m ρ c)
theorem a7_v79 : W7 m ρ c (Proc.devRef .tc main_v79) = val_main_v107 (F := Ideal) (m ((c : Thread nD τ).loc main_arg2)) (m ((c : Thread nD τ).loc main_arg3)) (m ((c : Thread nD τ).loc main_arg6)) :=
  (s3_keep_v79 (W6 m ρ c)).trans (a6_v79 m ρ c)

/-! ## After the last region: the result -/

theorem fused_congr {a a' b b' e e' f f' g g' : S100000x128.Idx → EReal} {d d' r r' : S100000x1.Idx → EReal}
    (ha : a = a') (hb : b = b') (he : e = e') (hf : f = f') (hg : g = g') (hd : d = d') (hr : r = r') :
    fused a b e f g d r = fused a' b' e' f' g' d' r' := by
  rw [ha, hb, he, hf, hg, hd, hr]

/-- The kernel's result array is the reference's result stage of the launch contents of the arguments. -/
theorem a8_v120 : W8 m ρ c (Proc.devRef .tc main_v120) = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 7).trans ((array3 (V7 m ρ) c).trans
    ((fused_congr (a7_v99 m ρ c) (a7_v30 m ρ c) (a7_v56 m ρ c) (a7_v119 m ρ c) (a7_v79 m ρ c) (a7_v28 m ρ c) (a7_v29 m ρ c)).trans
      (fused_is_reference _ _ _ _ _ _ _)))

end Cert.KernelIdeal.Fold

end
-- ==== Proof.lean ====
/-
  The kernel computes, over f32[100000,128] node features, a graph layer's mean of three normalised sources,
      out = (X' + Z' + Zα) · (1/3),
  X' = d ⊙ (A·(x WX) + d ⊙ (x WX)),  Z' = drow ⊙ B(bc WZ),  Zα = d ⊙ (A·H + d ⊙ H) with H = drow ⊙ B(bc Wα),
  where d, dcol, drow are the inverse square roots of one plus a count, A·H is the edge aggregation
  (gather by column, scale by d, scatter-add by row), B(·) the assignment gather scaled by dcol with the first thousand
  rows accumulated, and ⊙ scales row i by entry i. Four tiled regions do the regular parts — the product x WX in twenty
  row tiles, the product of bc with [WZ | Wα] side by side in one tile, the row scaling drow ⊙ ·, and the final fused
  mean in twenty row tiles — and host operations do the rest. The reference is the same formula with two separate
  products bc WZ and bc Wα, the scaling written drow ⊙ · on the left, and a division by 3.

  On the extended reals the two agree, index by index, with no finiteness needed:
    · a row tile of a product is the rows of the whole product, since entry (p, q) is the sum over k of l(p,k)·r(k,q);
    · columns 0..127 and 128..255 of bc [WZ | Wα] are bc WZ and bc Wα, since column q of the side-by-side matrix is
      column q of WZ, or column q - 128 of Wα;
    · a·s = s·a;
    · the named constant is the rational 1/3, and dividing an extended real by the real 3 is multiplying by 1/3;
    · every other operation is the same operation of equal operands on both sides.
  The kernel's run ends with every array at the fold of its eight segments (Proof/KRun.lean); each array a later
  segment reads is a stage of the reference (Proof/Fold.lean over Proof/Reg0..3, Proof/Stretch0..3, Proof/Bridge.lean).
-/
import proofs.«156599_j88467736363033_1_alg».proof.Defs
import proofs.«156599_j88467736363033_1_alg».proof.Proof.Gen.Kernel
import proofs.«156599_j88467736363033_1_alg».proof.Proof.Gen.Kernel.Skeleton
import proofs.«156599_j88467736363033_1_alg».proof.Proof.Gen.Kernel.Launch
import proofs.«156599_j88467736363033_1_alg».proof.Proof.Gen.Kernel.Points
import proofs.«156599_j88467736363033_1_alg».proof.Proof.Gen.Kernel.Frame
import proofs.«156599_j88467736363033_1_alg».proof.Proof.Gen.KernelIdeal
import proofs.«156599_j88467736363033_1_alg».proof.Proof.Gen.KernelIdeal.Skeleton
import proofs.«156599_j88467736363033_1_alg».proof.Proof.Gen.KernelIdeal.Launch
import proofs.«156599_j88467736363033_1_alg».proof.Proof.Gen.KernelIdeal.Points
import proofs.«156599_j88467736363033_1_alg».proof.Proof.Gen.KernelIdeal.Frame
import proofs.«156599_j88467736363033_1_alg».proof.Proof.Gen.ReferenceIdeal
import proofs.«156599_j88467736363033_1_alg».proof.Proof.Gen.ReferenceIdeal.Run
import proofs.«156599_j88467736363033_1_alg».proof.Proof.Gen.ReferenceIdeal.Read
import proofs.«156599_j88467736363033_1_alg».proof.Proof.Gen.Pre_finite_inputs
import proofs.«156599_j88467736363033_1_alg».proof.Proof.KRun
import proofs.«156599_j88467736363033_1_alg».proof.Proof.Fold
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealisation: the literal 0.3333333432674408 of the source's 1.0 / 3.0 is the rational 1/3. -/
theorem preserves : Cert.preserves_Kernel_KernelIdeal :=
  IdealRules.named_const.statement Cert.KernelIdeal.κ "inv_3" .f32 0x3EAAAAAB#32 ((1 / 3 : ℝ) : EReal) rfl

/-- Both programs end with the result array at the reference's last stage of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v120),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v138_eq, (hagree c).1, (hagree c).2.1, (hagree c).2.2.1, (hagree c).2.2.2.1,
    (hagree c).2.2.2.2.1, (hagree c).2.2.2.2.2.1, (hagree c).2.2.2.2.2.2]
  exact (Cert.KernelIdeal.Fold.a8_v120 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
